-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S64x16 : Shape := ⟨2, ![64, 16]⟩
abbrev S1048576 : Shape := ⟨1, ![1048576]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S64x16 : S_.BroadcastsInDim S64x16 (![] : Fin 0 → Fin S64x16.rank)
  reducesTo_S64x16_S_d0_1 : S64x16.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8192x4096 .f32) (main_arg1 : FVec F S64x16 .f32) (main_arg2 : IVec S1048576 32) (main_arg3 : FVec F S64x16 .f32) (main_arg4 : IVec S1048576 32) (main_arg5 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S64x16 .f32 := Host.absf main_arg1
  let main_cst_0 : FVec F S_ .f32 := constant S_ .f32 0x7F800000#32
  let main_v5 : FVec F S64x16 .f32 := broadcastInDim S64x16 ![] bcast_S_S64x16 main_cst_0
  let main_v6 : IVec S64x16 1 := cmpf .olt main_v4 main_v5
  let main_c_1 : IVec S_ 1 := constantI S_ 1 1#1
  let main_v7 : IVec S_ 1 := (fun x v => Host.reduce IntOp.andi x v reducesTo_S64x16_S_d0_1 h_S_) main_v6 main_c_1
  let main_v8 : IVec S_ 1 := andi main_v3 main_v7
  let main_v9 : FVec F S64x16 .f32 := Host.absf main_arg3
  let main_cst_2 : FVec F S_ .f32 := constant S_ .f32 0x7F800000#32
  let main_v10 : FVec F S64x16 .f32 := broadcastInDim S64x16 ![] bcast_S_S64x16 main_cst_2
  let main_v11 : IVec S64x16 1 := cmpf .olt main_v9 main_v10
  let main_c_3 : IVec S_ 1 := constantI S_ 1 1#1
  let main_v12 : IVec S_ 1 := (fun x v => Host.reduce IntOp.andi x v reducesTo_S64x16_S_d0_1 h_S_) main_v11 main_c_3
  let main_v13 : IVec S_ 1 := andi main_v8 main_v12
  let main_v14 : FVec F S4096 .f32 := Host.absf main_arg5
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8192x4096 : Shape := ⟨2, ![8192, 4096]⟩
abbrev S64x16 : Shape := ⟨2, ![64, 16]⟩
abbrev S1048576 : Shape := ⟨1, ![1048576]⟩
abbrev S4096 : Shape := ⟨1, ![4096]⟩
abbrev S_ : Shape := ⟨0, ![]⟩
abbrev S1048576x1 : Shape := ⟨2, ![1048576, 1]⟩
abbrev S1048576x16 : Shape := ⟨2, ![1048576, 16]⟩
abbrev S4096x4096 : Shape := ⟨2, ![4096, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 30
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S64x16, .f32⟩
  | .hbm, ⟨2, _⟩ => ⟨S1048576, .i32⟩
  | .hbm, ⟨3, _⟩ => ⟨S64x16, .f32⟩
  | .hbm, ⟨4, _⟩ => ⟨S1048576, .i32⟩
  | .hbm, ⟨5, _⟩ => ⟨S4096, .f32⟩
  | .hbm, ⟨6, _⟩ => ⟨S_, .i32⟩
  | .hbm, ⟨7, _⟩ => ⟨S1048576, .i32⟩
  | .hbm, ⟨8, _⟩ => ⟨S1048576, .i1⟩
  | .hbm, ⟨9, _⟩ => ⟨S_, .i32⟩
  | .hbm, ⟨10, _⟩ => ⟨S1048576, .i32⟩
  | .hbm, ⟨11, _⟩ => ⟨S1048576, .i32⟩
  | .hbm, ⟨12, _⟩ => ⟨S1048576, .i32⟩
  | .hbm, ⟨13, _⟩ => ⟨S1048576x1, .i32⟩
  | .hbm, ⟨14, _⟩ => ⟨S1048576x16, .f32⟩
  | .hbm, ⟨15, _⟩ => ⟨S_, .i32⟩
  | .hbm, ⟨16, _⟩ => ⟨S1048576, .i32⟩
  | .hbm, ⟨17, _⟩ => ⟨S1048576, .i1⟩
  | .hbm, ⟨18, _⟩ => ⟨S_, .i32⟩
  | .hbm, ⟨19, _⟩ => ⟨S1048576, .i32⟩
  | .hbm, ⟨20, _⟩ => ⟨S1048576, .i32⟩
  | .hbm, ⟨21, _⟩ => ⟨S1048576, .i32⟩
  | .hbm, ⟨22, _⟩ => ⟨S1048576x1, .i32⟩
  | .hbm, ⟨23, _⟩ => ⟨S1048576x16, .f32⟩
  | .hbm, ⟨24, _⟩ => ⟨S1048576x16, .f32⟩
  | .hbm, ⟨25, _⟩ => ⟨S4096x4096, .f32⟩
  | .hbm, ⟨26, _⟩ => ⟨S8192x4096, .bf16⟩
  | .hbm, ⟨27, _⟩ => ⟨S4096x4096, .bf16⟩
  | .hbm, ⟨28, _⟩ => ⟨S1x4096, .f32⟩
  | .hbm, ⟨29, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S1048576 : S_.BroadcastsInDim S1048576 (![] : Fin 0 → Fin S1048576.rank)
  bcast_S1048576_S1048576x1_0 : S1048576.BroadcastsInDim S1048576x1 (![0] : Fin 1 → Fin S1048576x1.rank)
  shapeCasts_S1048576x16_S4096x4096 : S1048576x16.ShapeCasts S4096x4096
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  gather_S64x16_S1048576x1_S1048576x16_1_0_n_n_0_1_116_wf : GatherDims.WF S64x16 S1048576x1 S1048576x16 [1] [0] [] [0] [] 1 ![1, 16]
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def gather_S64x16_S1048576x1_S1048576x16_1_0_n_n_0_1_116 : GatherDims S64x16 S1048576x1 S1048576x16 where
  offsetDims := [1]
  collapsedSliceDims := [0]
  operandBatchingDims := []
  startIndicesBatchingDims := []
  startIndexMap := [0]
  indexVectorDim := 1
  sliceSizes := ![1, 16]
  wf := gather_S64x16_S1048576x1_S1048576x16_1_0_n_n_0_1_116_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v16) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S64x16 : Shape := ⟨2, ![64, 16]⟩
abbrev S1048576 : Shape := ⟨1, ![1048576]⟩
abbrev S4096 : Shape := ⟨1, ![4096]⟩
abbrev S_ : Shape := ⟨0, ![]⟩
abbrev S1048576x1 : Shape := ⟨2, ![1048576, 1]⟩
abbrev S1048576x16 : Shape := ⟨2, ![1048576, 16]⟩
abbrev S4096x4096 : Shape := ⟨2, ![4096, 4096]⟩
abbrev S1x4096 : Shape := ⟨2, ![1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S64x16, .f32⟩
  | .hbm, ⟨2, _⟩ => ⟨S1048576, .i32⟩
  | .hbm, ⟨3, _⟩ => ⟨S64x16, .f32⟩
  | .hbm, ⟨4, _⟩ => ⟨S1048576, .i32⟩
  | .hbm, ⟨5, _⟩ => ⟨S4096, .f32⟩
  | .hbm, ⟨6, _⟩ => ⟨S_, .i32⟩
  | .hbm, ⟨7, _⟩ => ⟨S1048576, .i32⟩
  | .hbm, ⟨8, _⟩ => ⟨S1048576, .i1⟩
  | .hbm, ⟨9, _⟩ => ⟨S_, .i32⟩
  | .hbm, ⟨10, _⟩ => ⟨S1048576, .i32⟩
  | .hbm, ⟨11, _⟩ => ⟨S1048576, .i32⟩
  | .hbm, ⟨12, _⟩ => ⟨S1048576, .i32⟩
  | .hbm, ⟨13, _⟩ => ⟨S1048576x1, .i32⟩
  | .hbm, ⟨14, _⟩ => ⟨S1048576x16, .f32⟩
  | .hbm, ⟨15, _⟩ => ⟨S_, .i32⟩
  | .hbm, ⟨16, _⟩ => ⟨S1048576, .i32⟩
  | .hbm, ⟨17, _⟩ => ⟨S1048576, .i1⟩
  | .hbm, ⟨18, _⟩ => ⟨S_, .i32⟩
  | .hbm, ⟨19, _⟩ => ⟨S1048576, .i32⟩
  | .hbm, ⟨20, _⟩ => ⟨S1048576, .i32⟩
  | .hbm, ⟨21, _⟩ => ⟨S1048576, .i32⟩
  | .hbm, ⟨22, _⟩ => ⟨S1048576x1, .i32⟩
  | .hbm, ⟨23, _⟩ => ⟨S1048576x16, .f32⟩
  | .hbm, ⟨24, _⟩ => ⟨S1048576x16, .f32⟩
  | .hbm, ⟨25, _⟩ => ⟨S4096x4096, .f32⟩
  | .hbm, ⟨26, _⟩ => ⟨S4096x4096, .f32⟩
  | .hbm, ⟨27, _⟩ => ⟨S8192x4096, .f32⟩
  | .hbm, ⟨28, _⟩ => ⟨S1x4096, .f32⟩
  | .hbm, ⟨29, _⟩ => ⟨S8192x4096, .f32⟩
  | .hbm, ⟨30, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  bcast_S_S1048576 : S_.BroadcastsInDim S1048576 (![] : Fin 0 → Fin S1048576.rank)
  bcast_S1048576_S1048576x1_0 : S1048576.BroadcastsInDim S1048576x1 (![0] : Fin 1 → Fin S1048576x1.rank)
  shapeCasts_S1048576x16_S4096x4096 : S1048576x16.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  gather_S64x16_S1048576x1_S1048576x16_1_0_n_n_0_1_116_wf : GatherDims.WF S64x16 S1048576x1 S1048576x16 [1] [0] [] [0] [] 1 ![1, 16]
  dot_S8192x4096_S4096x4096_S8192x4096_1_0_0_1_n_n_wf : DotDims.WF S8192x4096 S4096x4096 S8192x4096 [1] [0] [0] [1] [] []

variable [Facts₀]

def gather_S64x16_S1048576x1_S1048576x16_1_0_n_n_0_1_116 : GatherDims S64x16 S1048576x1 S1048576x16 where
  offsetDims := [1]
  collapsedSliceDims := [0]
  operandBatchingDims := []
  startIndicesBatchingDims := []
  startIndexMap := [0]
  indexVectorDim := 1
  sliceSizes := ![1, 16]
  wf := gather_S64x16_S1048576x1_S1048576x16_1_0_n_n_0_1_116_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Entry.lean ====
/-
  What the pallas_call's three operands hold when the region is entered, as terms of the program's arguments.

  Before the call the host program converts the input `x` to the narrower float format (a change of format:
  the same numbers at the ideal instance), builds the weight matrix — both 64 x 16 codebooks gathered at
  their labels (a negative label counted from the end), the two gathered arrays added and the 1048576 x 16
  result laid out as 4096 x 4096 — and converts it likewise, and views the bias as a 1 x 4096 row. The reference's
  program builds the weight matrix by the very same operations, so the two matrices are one term.
-/
import proofs.«133738_j6751688589356_1_alg».proof.Proof.Gen.KernelIdeal.Frame
import proofs.«133738_j6751688589356_1_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.Tactic

noncomputable section

open Idealize.ShloMosaic Idealize.ShloMosaic.Tactic Idealize.ShloMosaic.TcCoe Idealize.SL.Sem Idealize.ShloMosaic.StableHlo Idealize.ShloMosaic.ValueIdx

namespace Cert.KernelIdeal.Entry
open Cert.KernelIdeal Cert.KernelIdeal.Gen

variable {F : FTy → Type} [FloatOps F]
variable (m : (ℓ : Loc nD τ sig) → Buf (Elt F) ℓ)

theorem entry_x (c : Dev nD) :
    (V m c main_v16 : (⟨S8192x4096, .bf16⟩ : BufTy).Contents (Elt F))
      = truncf .bf16 (m ((c : Thread nD τ).loc main_arg0)) bitsLt_bf16_f32 := by
  dsimp only [Gen.V, Gen.hostOps0]
  after_results <;> rfl

theorem entry_b (c : Dev nD) :
    (V m c main_v18 : (⟨S1x4096, .f32⟩ : BufTy).Contents (Elt F))
      = shapeCast S1x4096 (m ((c : Thread nD τ).loc main_arg5)) shapeCasts_S4096_S1x4096 := by
  dsimp only [Gen.V, Gen.hostOps0]
  after_results
  rfl

/-- The weight matrix as the kernel's program builds it: both codebooks gathered at their (wrapped) labels,
    added, and laid out as a 4096 x 4096 matrix. -/
def weights (x1 : (⟨S64x16, .f32⟩ : BufTy).Contents (Elt F)) (x2 : (⟨S1048576, .i32⟩ : BufTy).Contents (Elt F))
    (x3 : (⟨S64x16, .f32⟩ : BufTy).Contents (Elt F)) (x4 : (⟨S1048576, .i32⟩ : BufTy).Contents (Elt F)) :
    (⟨S4096x4096, .f32⟩ : BufTy).Contents (Elt F) :=
  shapeCast _ (addf (Host.gather gather_S64x16_S1048576x1_S1048576x16_1_0_n_n_0_1_116 (x1) (broadcastInDim S1048576x1 ![0] bcast_S1048576_S1048576x1_0 (select (cmpi .slt (x2) (broadcastInDim S1048576 ![] bcast_S_S1048576 (constantI S_ 32 0#32))) (addi (x2) (broadcastInDim S1048576 ![] bcast_S_S1048576 (constantI S_ 32 64#32))) (x2)))) (Host.gather gather_S64x16_S1048576x1_S1048576x16_1_0_n_n_0_1_116 (x3) (broadcastInDim S1048576x1 ![0] bcast_S1048576_S1048576x1_0 (select (cmpi .slt (x4) (broadcastInDim S1048576 ![] bcast_S_S1048576 (constantI S_ 32 0#32))) (addi (x4) (broadcastInDim S1048576 ![] bcast_S_S1048576 (constantI S_ 32 64#32))) (x4))))) shapeCasts_S1048576x16_S4096x4096

set_option maxHeartbeats 2000000 in
theorem entry_w (c : Dev nD) :
    (V m c main_v17 : (⟨S4096x4096, .bf16⟩ : BufTy).Contents (Elt F))
      = truncf .bf16 (weights (F := F) (m ((c : Thread nD τ).loc main_arg1)) (m ((c : Thread nD τ).loc main_arg2)) (m ((c : Thread nD τ).loc main_arg3)) (m ((c : Thread nD τ).loc main_arg4))) bitsLt_bf16_f32 := by
  unfold weights
  dsimp only [Gen.V, Gen.hostOps0]
  sl_kernel_rfl

/-- The reference's program builds the same matrix, by the same operations. -/
theorem weights_eq (x1 : (⟨S64x16, .f32⟩ : BufTy).Contents (Elt F)) (x2 : (⟨S1048576, .i32⟩ : BufTy).Contents (Elt F))
    (x3 : (⟨S64x16, .f32⟩ : BufTy).Contents (Elt F)) (x4 : (⟨S1048576, .i32⟩ : BufTy).Contents (Elt F)) :
    weights (F := F) x1 x2 x3 x4 = Cert.ReferenceIdeal.Read.val_main_v15 (F := F) x1 x2 x3 x4 := rfl

end Cert.KernelIdeal.Entry
end
-- ==== Proof.Pieces.lean ====
/-
  What each kind of grid point leaves behind, as plain terms of the blocks it was handed.

  The contraction axis is cut into four consecutive slices, one per grid point of a run. The kernel keeps a
  1024 x 1024 accumulator: at the first point of a run it is zeroed and the first partial product
  added; at each later point the partial product of that point's slices is added to what the point before
  left; at the last point the bias row is added to the accumulator and the sum stored as the output block.
  Each point stores whole blocks, so what a point leaves is simply the value of its last store.
-/
import proofs.«133738_j6751688589356_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)

namespace Cert.KernelIdeal.Pieces
open Cert.KernelIdeal Cert.KernelIdeal.Gen
variable {F : FTy → Type} [FloatOps F]

/-- The zero offsets of a whole-block access, as the one constant function. -/
theorem zero_off : (![0, 0] : Fin S1024x1024.rank → Nat) = fun _ => 0 :=
  funext fun a => by match a with | ⟨0, _⟩ => rfl | ⟨1, _⟩ => rfl

/-- At the first step of a contraction the accumulator is zeroed and the first partial product added:
    the scratch ends at the update of the zero block by the point's two input blocks. -/
theorem first_step (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (hc0 : cond0_0 i) (hc1 : ¬cond0_1 i) (x0 : Vec F S1024x1024 .bf16) (x1 : Vec F S1024x1024 .bf16) (x2 : Vec F S1x1024 .f32) :
    sout0_A_0 c i arg3 harg3 arg4 harg4 arg5 harg5 arg6 harg6 scM0_0 (Memref.isWhole_whole _) hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 scM0_0 (Memref.isWhole_whole _) hc0 hc1 x0 x1 x2)]
  unfold kernelRun0_A
  dsimp only
  sl_unfold_words
  rw [View.canon_cons_unit_zero zero_off]
  simp only [View.readAt_eq_ld, Memref.IsWhole.read_unread, View.ld_unit_zero (S := S1024x1024) zero_off]
  rw [View.readCov_unit_zero _ zero_off]

/-- At a middle step the scratch ends at the update of what the step before left by the point's two input blocks. -/
theorem middle_step (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (hc0 : ¬cond0_0 i) (hc1 : ¬cond0_1 i) (x0 : Vec F S1024x1024 .bf16) (x1 : Vec F S1024x1024 .bf16) (x2 : Vec F S1x1024 .f32) (xs0 : Vec F S1024x1024 .f32) :
    sout0_B_0 c i arg3 harg3 arg4 harg4 arg5 harg5 arg6 harg6 scM0_0 (Memref.isWhole_whole _) hc0 hc1 x0 x1 x2 xs0 = k0_pay2 xs0 x0 x1 := by
  unfold sout0_B_0
  rw [View.read_writes_eq_canon _ _ _ (scover0_B_0 c i arg3 harg3 arg4 harg4 arg5 harg5 arg6 harg6 scM0_0 (Memref.isWhole_whole _) hc0 hc1 x0 x1 x2 xs0)]
  unfold kernelRun0_B
  dsimp only
  rw [View.canon_unit_zero zero_off]
  simp only [View.readAt_eq_ld, Memref.IsWhole.read_unread, View.ld_unit_zero (S := S1024x1024) zero_off]
  exact congrArg (fun z => k0_pay2 z x0 x1) ((Memref.isWhole_whole cc0_scratch0).read_unread xs0)

/-- At the last step the scratch is updated in the same way … -/
theorem last_step_scratch (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (hc0 : ¬cond0_0 i) (hc1 : cond0_1 i) (x0 : Vec F S1024x1024 .bf16) (x1 : Vec F S1024x1024 .bf16) (x2 : Vec F S1x1024 .f32) (xs0 : Vec F S1024x1024 .f32) :
    sout0_C_0 c i arg3 harg3 arg4 harg4 arg5 harg5 arg6 harg6 scM0_0 (Memref.isWhole_whole _) hc0 hc1 x0 x1 x2 xs0 = k0_pay2 xs0 x0 x1 := by
  unfold sout0_C_0
  rw [View.read_writes_eq_canon _ _ _ (scover0_C_0 c i arg3 harg3 arg4 harg4 arg5 harg5 arg6 harg6 scM0_0 (Memref.isWhole_whole _) hc0 hc1 x0 x1 x2 xs0)]
  unfold kernelRun0_C
  dsimp only
  sl_unfold_words
  rw [View.canon_unit_zero zero_off]
  simp only [View.readAt_eq_ld, Memref.IsWhole.read_unread, View.ld_unit_zero (S := S1024x1024) zero_off]
  exact congrArg (fun z => k0_pay2 z x0 x1) ((Memref.isWhole_whole cc0_scratch0).read_unread xs0)

/-- … and the output block is the updated scratch plus the bias row. -/
theorem last_step_out (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (hc0 : ¬cond0_0 i) (hc1 : cond0_1 i) (x0 : Vec F S1024x1024 .bf16) (x1 : Vec F S1024x1024 .bf16) (x2 : Vec F S1x1024 .f32) (xs0 : Vec F S1024x1024 .f32) :
    out0_C_3 c i arg3 harg3 arg4 harg4 arg5 harg5 arg6 harg6 scM0_0 (Memref.isWhole_whole _) hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 scM0_0 (Memref.isWhole_whole _) hc0 hc1 x0 x1 x2 xs0)]
  unfold kernelRun0_C
  dsimp only
  sl_unfold_words
  rw [View.canon_unit_zero zero_off, View.readCov_unit_zero _ zero_off]
  simp only [View.readAt_eq_ld, Memref.IsWhole.read_unread, View.ld_unit_zero (S := S1024x1024) zero_off,
    View.ld_unit_zero (S := S1x1024) zero_off]
  exact congrArg (fun z => k0_pay3 (k0_pay2 z x0 x1) x2) ((Memref.isWhole_whole cc0_scratch0).read_unread xs0)

end Cert.KernelIdeal.Pieces
end
-- ==== Proof.LibMatmulSum.lean ====
/-
  A matrix product with ONE contracted axis, read at an output index as a sum over that axis's positions.

  At the ideal instance a `tpu.matmul` into the zero accumulator, and the host's `dot_general`, are at every
  output index the sum over the contraction index of the products of the two operands' entries. When exactly one axis is
  contracted, the contraction index is one number `k < K`; if at the output index `j` the left operand is read at
  `L k` and the right one at `R k`, the entry is `∑ k : Fin K, lhs (L k) * rhs (R k)`. The two index facts are
  the only thing a caller supplies; they hold for any layout of the contracted and free axes.
-/
import Idealize.ShloMosaic.PureOps.Ideal.Laws
import Idealize.ShloMosaic.Lib.ValueIdx

noncomputable section

namespace Idealize.ShloMosaic.MatmulSum

open Idealize.ShloMosaic Idealize.ShloMosaic.ValueIdx

variable {sl sr so : Shape} {φ₁ φ₂ : FTy}

/-- A `tpu.matmul` into the zero splat with one contracted axis of extent `K`: at `j` it is the sum over `k < K` of the
    left operand at `L k` times the right operand at `R k`, where `L k` and `R k` are the operand indices the
    dimension numbers assign to output index `j` and contraction position `k`. -/
theorem matmul_zero_apply_single (D : DotDims sl sr so) (prec : Option ContractPrecision) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.matmul D prec lhs rhs (constant so .f32 0x00000000#32) j = ∑ k : Fin K, lhs (L k) * rhs (R k) := by
  rw [Ideal.matmul_constant_zero_apply, ← Equiv.sum_comp (contrEquiv1 D K hr hs).symm]
  exact Finset.sum_congr rfl fun k _ => by rw [hL k, hR k]

/-- The host's `dot_general` with one contracted axis of extent `K`, read the same way. -/
theorem dotGeneral_apply_single (D : DotDims sl sr so) (prec : Option ContractPrecision) (sched : HostSchedule) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.dotGeneral D prec sched lhs rhs j = ∑ k : Fin K, lhs (L k) * rhs (R k) := by
  rw [Ideal.dotGeneral_apply, ← Equiv.sum_comp (contrEquiv1 D K hr hs).symm]
  exact Finset.sum_congr rfl fun k _ => by rw [hL k, hR k]

end Idealize.ShloMosaic.MatmulSum

end
-- ==== Proof.Payload.lean ====
/-
  The three values a grid point stores, read at one entry of the block, at the ideal instance.

  The zeroed accumulator is 0 everywhere. An accumulation step adds to entry (p, q) the contraction of row p of
  the left block with row q of the right block over the block's 1024 features (both operands are contracted
  along their second axis: the product is `a · bᵀ`; the narrower float format of the operands is the identity
  on extended reals). The epilogue adds entry q of the 1 x 1024 bias row to every row of the accumulator.
-/
import proofs.«133738_j6751688589356_1_alg».proof.Proof.Gen.KernelIdeal.Skeleton
import proofs.«133738_j6751688589356_1_alg».proof.Proof.LibMatmulSum
import Idealize.ShloMosaic.Lib.Pipeline.Value
import Idealize.ShloMosaic.Lib.ValueIdx
import Idealize.ShloMosaic.PureOps.Ideal.Laws

noncomputable section

open Idealize.ShloMosaic Idealize.ShloMosaic.ValueIdx
open scoped BigOperators

namespace Cert.KernelIdeal.Payload
open Cert.KernelIdeal Cert.KernelIdeal.Gen

/-- The block product's dimension numbers: both operands are contracted along their second axis. -/
abbrev D : DotDims S1024x1024 S1024x1024 S1024x1024 := dot_S1024x1024_S1024x1024_S1024x1024_1_1_0_0_n_n

theorem lhs_row (j : S1024x1024.Idx) (q : D.contr.Idx) : (D.lhsIdx j q 0).val = (j 0).val := by
  unfold DotDims.lhsIdx
  rw [dif_neg (show ¬(0 : Fin S1024x1024.rank) ∈ D.lhsBatch by decide),
    dif_pos (show (0 : Fin S1024x1024.rank) ∈ D.lhsNonContracting by decide)]
  rfl
theorem lhs_col (j : S1024x1024.Idx) (q : D.contr.Idx) : (D.lhsIdx j q 1).val = (q ⟨0, by decide⟩).val :=
  D.lhsIdx_val_of_single rfl j q
theorem rhs_row (j : S1024x1024.Idx) (q : D.contr.Idx) : (D.rhsIdx j q 0).val = (j 1).val := by
  unfold DotDims.rhsIdx
  rw [dif_neg (show ¬(0 : Fin S1024x1024.rank) ∈ D.rhsBatch by decide),
    dif_pos (show (0 : Fin S1024x1024.rank) ∈ D.rhsNonContracting by decide)]
  rfl
theorem rhs_col (j : S1024x1024.Idx) (q : D.contr.Idx) : (D.rhsIdx j q 1).val = (q ⟨0, by decide⟩).val :=
  D.rhsIdx_val_of_single rfl j q

/-- The zeroed accumulator holds 0 everywhere. -/
theorem zeroed_apply (y : S1024x1024.Idx) : k0_pay1 (F := Ideal) y = 0 := by
  unfold k0_pay1
  simp only [shapeCast_self]
  exact Ideal.ofBits_zero_f32

/-- One accumulation step at entry (p, q): what was there plus the contraction of row p of the left block with
    row q of the right block. -/
theorem update_apply (acc : Vec Ideal S1024x1024 .f32) (a b : Vec Ideal S1024x1024 .bf16) (p q : Fin 1024) :
    k0_pay2 (F := Ideal) acc a b (ix2 p q) = acc (ix2 p q) + ∑ l : Fin 1024, a (ix2 p l) * b (ix2 q l) := by
  unfold k0_pay2
  simp only [shapeCast_self]
  refine congrArg (acc (ix2 p q) + ·) ?_
  exact MatmulSum.matmul_zero_apply_single D none 1024 rfl rfl a b (ix2 p q) (fun l => ix2 p l) (fun l => ix2 q l)
    (fun k => funext fun ax => Fin.ext (by
      match ax with
      | ⟨0, _⟩ => exact lhs_row _ _
      | ⟨1, _⟩ => exact (lhs_col _ _).trans (contrEquiv1_symm_val D 1024 rfl rfl k)))
    (fun k => funext fun ax => Fin.ext (by
      match ax with
      | ⟨0, _⟩ => exact rhs_row _ _
      | ⟨1, _⟩ => exact (rhs_col _ _).trans (contrEquiv1_symm_val D 1024 rfl rfl k)))

/-- The epilogue at entry (p, q): the accumulator plus entry q of the bias row. -/
theorem epilogue_apply (acc : Vec Ideal S1024x1024 .f32) (row : Vec Ideal S1x1024 .f32) (p q : Fin 1024) :
    k0_pay3 (F := Ideal) acc row (ix2 p q) = acc (ix2 p q) + row (ix2 (0 : Fin 1) q) := by
  unfold k0_pay3
  simp only [shapeCast_self]
  refine congrArg (acc (ix2 p q) + ·) ?_
  exact broadcastTo_apply row broadcasts_S1x1024_S1024x1024 (ix2 p q) (ix2 (0 : Fin 1) q) (fun ax => by
    match ax with
    | ⟨0, _⟩ => show (0 : Nat) = if (1 : Nat) = 1 then 0 else _; rw [if_pos rfl]
    | ⟨1, _⟩ => show q.val = if (1024 : Nat) = 1 then 0 else q.val; rw [if_neg (by decide)])

end Cert.KernelIdeal.Payload
end
-- ==== Proof.Blocks.lean ====
/-
  Where each grid point's blocks sit in their arrays, and which points' output blocks make up the result.

  The 128 grid points run through (row block, column block, feature slice) with the slice fastest:
  point t is (t / 16, t / 4 % 4, t % 4). Every block is 1024 wide on each of its axes (the bias row's is
  1 x 1024), so an entry of a block sits at 1024 · (block index) + (its coordinate in the block) on each axis.
  The output block (row block, column block) is written back once, by the last point of its run of four
  slices; those 32 blocks tile the 8192 x 4096 result.
-/
import proofs.«133738_j6751688589356_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Blocks
open Cert.KernelIdeal Cert.KernelIdeal.Gen

variable {F : FTy → Type} [FloatOps F]
variable (m : (ℓ : Loc nD τ sig) → Buf (Elt F) ℓ)

/-- Grid point `t` stands for the triple (row block, column block, feature slice) = (t / 16, t / 4 % 4, t % 4):
    the input's block is (row block, slice), the weight matrix's (column block, slice), the bias row's
    (0, column block) and the output's (row block, column block). Decided over the 128 points. -/
theorem block_indices : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- Entry (p, l) of the input's block at a point is the input at (1024 · row block + p, 1024 · slice + l). -/
theorem x_block (c : Dev nD) (t : Fin cfg0.N) (p l : Fin 1024) (r : Fin 8192) (k : Fin 4096)
    (hr : r.val = 1024 * (t.val / 16) + p.val) (hk : k.val = 1024 * (t.val % 4) + l.val) :
    (iblk m c 0 t : Vec F S1024x1024 .bf16) (ix2 p l) = (V m c main_v16 : (⟨S8192x4096, .bf16⟩ : BufTy).Contents (Elt F)) (ix2 r k) := by
  obtain ⟨e0, e1, -⟩ := block_indices t
  show V m c main_v16 (((cfg0.win 0).blk t).view.emb (ix2 p l)) = V m c main_v16 (ix2 r k)
  refine congrArg (V m c main_v16) ?_
  funext a; apply Fin.ext
  match a with
  | ⟨0, _⟩ => show win0_0.index t (0 : Fin 2) * 1024 + 1 * p.val = r.val; omega
  | ⟨1, _⟩ => show win0_0.index t (1 : Fin 2) * 1024 + 1 * l.val = k.val; omega

/-- Entry (q, l) of the weight matrix's block at a point is the matrix at (1024 · column block + q, 1024 · slice + l). -/
theorem w_block (c : Dev nD) (t : Fin cfg0.N) (q l : Fin 1024) (o k : Fin 4096)
    (ho : o.val = 1024 * (t.val / 4 % 4) + q.val) (hk : k.val = 1024 * (t.val % 4) + l.val) :
    (iblk m c 1 t : Vec F S1024x1024 .bf16) (ix2 q l) = (V m c main_v17 : (⟨S4096x4096, .bf16⟩ : BufTy).Contents (Elt F)) (ix2 o k) := by
  obtain ⟨-, -, e0, e1, -⟩ := block_indices t
  show V m c main_v17 (((cfg0.win 1).blk t).view.emb (ix2 q l)) = V m c main_v17 (ix2 o k)
  refine congrArg (V m c main_v17) ?_
  funext a; apply Fin.ext
  match a with
  | ⟨0, _⟩ => show win0_1.index t (0 : Fin 2) * 1024 + 1 * q.val = o.val; omega
  | ⟨1, _⟩ => show win0_1.index t (1 : Fin 2) * 1024 + 1 * l.val = k.val; omega

/-- Entry (0, q) of the bias row's block at a point is the row at (0, 1024 · column block + q). -/
theorem b_block (c : Dev nD) (t : Fin cfg0.N) (q : Fin 1024) (o : Fin 4096)
    (ho : o.val = 1024 * (t.val / 4 % 4) + q.val) :
    (iblk m c 2 t : Vec F S1x1024 .f32) (ix2 (0 : Fin 1) q) = (V m c main_v18 : (⟨S1x4096, .f32⟩ : BufTy).Contents (Elt F)) (ix2 (0 : Fin 1) o) := by
  obtain ⟨-, -, -, -, e0, e1, -⟩ := block_indices t
  show V m c main_v18 (((cfg0.win 2).blk t).view.emb (ix2 (0 : Fin 1) q)) = V m c main_v18 (ix2 (0 : Fin 1) o)
  refine congrArg (V m c main_v18) ?_
  funext a; apply Fin.ext
  match a with
  | ⟨0, _⟩ => show win0_2.index t (0 : Fin 2) * 1 + 1 * 0 = 0; omega
  | ⟨1, _⟩ => show win0_2.index t (1 : Fin 2) * 1024 + 1 * q.val = o.val; omega

/-- An index of the result lies in a point's output block iff each coordinate lies in the block's range. -/
theorem mem_out_block (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v19).slice (win0_3.rect t)).set ↔ _
  rw [View.set_slice_whole, Rect.mem_set_unit]
  exact Iff.rfl

/-- Every entry of the result lies in the output block of the LAST point of some run of four: the point
    (row / 1024, column / 1024, 3), which is the one that writes its block back. -/
theorem covered (i : S8192x4096.Idx) :
    ∃ t : Fin cfg0.N, (cfg0.win 3).flush t = true ∧ i ∈ ((cfg0.win 3).blk t).view.set := by
  have h0 : (i 0).val < 8192 := (i 0).isLt
  have h1 : (i 1).val < 4096 := (i 1).isLt
  have hN : cfg0.N = 128 := N_0
  let t : Fin cfg0.N := ⟨16 * ((i 0).val / 1024) + 4 * ((i 1).val / 1024) + 3, by rw [hN]; omega⟩
  have ht : t.val = 16 * ((i 0).val / 1024) + 4 * ((i 1).val / 1024) + 3 := rfl
  obtain ⟨-, -, -, -, -, -, e0, e1⟩ := block_indices t
  refine ⟨t, (flush0_3 t).mpr (by omega), ?_⟩
  rw [mem_out_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

end Cert.KernelIdeal.Blocks
end
-- ==== Proof.LibSumChunks.lean ====
/-
  Sums over a range of length n * m taken chunk by chunk.

  In any commutative additive monoid, a sum over `Fin N` with `N = n * m` is the sum over the `n` consecutive
  chunks of length `m`: position `m * c + k` is entry `k` of chunk `c`. This is the re-association that turns
  a contraction computed as a few partial contractions over consecutive slices of the contracted axis, added up
  in order, into the one contraction over the whole axis. Only associativity and commutativity of `+` are used,
  so it holds in the extended reals with no finiteness assumption.
-/
import Mathlib.Algebra.BigOperators.Fin
import Mathlib.Logic.Equiv.Fin.Basic

namespace LibSumChunks

open Finset

/-- Entry `k` of chunk `c` sits at position `m * c + k`, inside the range. -/
theorem chunk_lt {N n m : ℕ} (h : N = n * m) (c : Fin n) (k : Fin m) : m * c.val + k.val < N := by
  subst h
  calc m * c.val + k.val < m * c.val + m := Nat.add_lt_add_left k.isLt _
    _ = m * (c.val + 1) := (Nat.mul_succ m c.val).symm
    _ ≤ m * n := Nat.mul_le_mul_left m c.isLt
    _ = n * m := Nat.mul_comm m n

/-- A sum over `Fin N`, `N = n * m`, is the sum over the `n` chunks of the sums over each chunk's `m` entries. -/
theorem sum_chunks {M : Type*} [AddCommMonoid M] {N : ℕ} (n m : ℕ) (h : N = n * m) (f : Fin N → M) :
    ∑ i : Fin N, f i = ∑ c : Fin n, ∑ k : Fin m, f ⟨m * c.val + k.val, chunk_lt h c k⟩ := by
  subst h
  rw [← (finProdFinEquiv (m := n) (n := m)).sum_comp, Fintype.sum_prod_type]
  refine Finset.sum_congr rfl fun c _ => Finset.sum_congr rfl fun k _ => congrArg f (Fin.ext ?_)
  show (k.val + m * c.val : ℕ) = m * c.val + k.val
  exact Nat.add_comm _ _

/-- Four chunks, written out in the order a left-to-right accumulation adds them, starting from zero. -/
theorem sum_four_chunks {M : Type*} [AddCommMonoid M] {N : ℕ} (m : ℕ) (h : N = 4 * m) (f : Fin N → M) :
    ∑ i : Fin N, f i
      = (((0 + ∑ k : Fin m, f ⟨m * 0 + k.val, chunk_lt h 0 k⟩) + ∑ k : Fin m, f ⟨m * 1 + k.val, chunk_lt h 1 k⟩)
          + ∑ k : Fin m, f ⟨m * 2 + k.val, chunk_lt h 2 k⟩) + ∑ k : Fin m, f ⟨m * 3 + k.val, chunk_lt h 3 k⟩ := by
  rw [sum_chunks 4 m h f, Fin.sum_univ_four, zero_add]
  rfl

end LibSumChunks
-- ==== Proof.Spec.lean ====
/-
  The linear layer as one function of its three arrays, and the one law that relates the two ways of
  computing it.

  For an input `x` of 8192 rows and 4096 features, a weight matrix `w` of 4096 rows (one per output
  feature) and a bias `b`, the layer is `y = x · wᵀ + b`: entry (r, n) of the result is the contraction of
  row r of `x` with row n of `w` over all 4096 features, plus `b n`.

  The contraction can be taken in one sweep, or slice by slice: the features are cut into four consecutive
  slices of 1024, each slice's partial contraction is added in order to an accumulator that starts at zero, and
  the bias is added at the end. Only associativity and commutativity of addition relate the two, so the law
  holds for every extended-real entry, infinite ones included.
-/
import Idealize.ShloMosaic.PureOps.Ideal
import Idealize.ShloMosaic.Lib.ValueIdx
import proofs.«133738_j6751688589356_1_alg».proof.Proof.LibSumChunks

noncomputable section

open Idealize.ShloMosaic Idealize.ShloMosaic.ValueIdx
open scoped BigOperators

namespace Cert.Linear

/-- The input's, the weight matrix's and the bias's index sets. -/
abbrev SX : Shape := ⟨2, ![8192, 4096]⟩
abbrev SW : Shape := ⟨2, ![4096, 4096]⟩
abbrev SB : Shape := ⟨1, ![4096]⟩

/-- `y = x · wᵀ + b`, entry by entry. -/
def linear (x : SX.Idx → EReal) (w : SW.Idx → EReal) (b : SB.Idx → EReal) : SX.Idx → EReal := fun i =>
  (∑ k : Fin 4096, x (ix2 (⟨(i 0).val, idx2_lt0 i⟩ : Fin 8192) k) * w (ix2 (⟨(i 1).val, idx2_lt1 i⟩ : Fin 4096) k))
    + b (ix1 (⟨(i 1).val, idx2_lt1 i⟩ : Fin 4096))

theorem linear_apply (x : SX.Idx → EReal) (w : SW.Idx → EReal) (b : SB.Idx → EReal) (r : Fin 8192) (n : Fin 4096) :
    linear x w b (ix2 r n) = (∑ k : Fin 4096, x (ix2 r k) * w (ix2 n k)) + b (ix1 n) := rfl

/-- Feature `l` of slice `s`: position `1024 * s + l` of the contracted axis. -/
abbrev feat (s : Fin 4) (l : Fin 1024) : Fin 4096 := ⟨1024 * s.val + l.val, by omega⟩

/-- The contraction of one slice of features. -/
def partial_ (x : SX.Idx → EReal) (w : SW.Idx → EReal) (r : Fin 8192) (n : Fin 4096) (s : Fin 4) : EReal :=
  ∑ l : Fin 1024, x (ix2 r (feat s l)) * w (ix2 n (feat s l))

/-- The four partial contractions added in order to an accumulator that starts at zero, then the bias: the
    layer's entry. -/
theorem linear_by_slices (x : SX.Idx → EReal) (w : SW.Idx → EReal) (b : SB.Idx → EReal) (r : Fin 8192) (n : Fin 4096) :
    ((((0 + partial_ x w r n 0) + partial_ x w r n 1) + partial_ x w r n 2) + partial_ x w r n 3) + b (ix1 n)
      = linear x w b (ix2 r n) := by
  rw [linear_apply, LibSumChunks.sum_four_chunks 1024 (by norm_num) (fun k => x (ix2 r k) * w (ix2 n k))]
  rfl

end Cert.Linear

end
-- ==== Proof.Accum.lean ====
/-
  The accumulator over a run of four grid points, and the output block the run's last point stores.

  A run is the four points that share a (row block, column block) and walk the four slices of the contracted
  axis. Entry (p, q) of the block stands for row r = 1024 · (row block) + p of the input and row
  o = 1024 · (column block) + q of the weight matrix. The first point leaves 0 plus the first slice's partial
  contraction of those two rows; each later point adds its slice's; the last point also adds the bias at o and
  stores the sum. Re-associating the four partial contractions into the one contraction over all 4096 features
  (which needs only that addition is associative and commutative) gives the layer's entry (r, o).
-/
import proofs.«133738_j6751688589356_1_alg».proof.Proof.Gen.KernelIdeal.Value
import proofs.«133738_j6751688589356_1_alg».proof.Proof.Pieces
import proofs.«133738_j6751688589356_1_alg».proof.Proof.Payload
import proofs.«133738_j6751688589356_1_alg».proof.Proof.Blocks
import proofs.«133738_j6751688589356_1_alg».proof.Proof.Spec

noncomputable section

open Idealize.ShloMosaic Idealize.ShloMosaic.TcCoe Idealize.SL.Sem Idealize.ShloMosaic.ValueIdx
open Idealize.ShloMosaic.Pipeline (Dat)
open scoped BigOperators

namespace Cert.KernelIdeal.Accum
open Cert.KernelIdeal Cert.KernelIdeal.Gen Cert.Linear

variable (m : (ℓ : Loc nD τ sig) → Buf (Elt Ideal) ℓ)

/-- One accumulation step at grid point `n`, at entry (p, q) of the block: what was there plus the partial
    contraction, over the point's slice of features, of the input's row and the weight matrix's row that the
    entry stands for. -/
theorem step_apply (c : Dev nD) (n : ℕ) (hn : n < cfg0.N) (acc : Vec Ideal S1024x1024 .f32) (p q : Fin 1024)
    (r : Fin 8192) (o : Fin 4096) (s : Fin 4)
    (hr : r.val = 1024 * (n / 16) + p.val) (ho : o.val = 1024 * (n / 4 % 4) + q.val) (hs : s.val = n % 4) :
    k0_pay2 (F := Ideal) acc (iblk m c 0 ⟨n, hn⟩) (iblk m c 1 ⟨n, hn⟩) (ix2 p q)
      = acc (ix2 p q) + partial_ (V m c main_v16) (V m c main_v17) r o s := by
  refine (Payload.update_apply acc (iblk m c 0 ⟨n, hn⟩) (iblk m c 1 ⟨n, hn⟩) p q).trans ?_
  refine congrArg (acc (ix2 p q) + ·) ?_
  unfold partial_
  refine Finset.sum_congr rfl fun l _ => ?_
  exact congrArg₂ (· * ·)
    (Blocks.x_block m c ⟨n, hn⟩ p l r (feat s l) hr (by show 1024 * s.val + l.val = _; rw [hs]))
    (Blocks.w_block m c ⟨n, hn⟩ q l o (feat s l) ho (by show 1024 * s.val + l.val = _; rw [hs]))

/-- At the first point of a run the scratch ends at the zeroed accumulator updated once. -/
theorem scratch_first (c : Dev nD) (n : ℕ) (hn : n < cfg0.N) (h0 : n % 4 = 0) (acc : Vec Ideal S1024x1024 .f32) :
    Value.scAt0_0 m c n hn acc = k0_pay2 (k0_pay1 (F := Ideal)) (iblk m c 0 ⟨n, hn⟩) (iblk m c 1 ⟨n, hn⟩) := by
  unfold Value.scAt0_0
  rw [dif_pos h0, dif_neg (by omega)]
  exact Pieces.first_step c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) _ _ (iblk m c 0 ⟨n, hn⟩) (iblk m c 1 ⟨n, hn⟩) (iblk m c 2 ⟨n, hn⟩)

/-- At a middle point of a run it ends at what the point before left, updated once. -/
theorem scratch_middle (c : Dev nD) (n : ℕ) (hn : n < cfg0.N) (h0 : ¬n % 4 = 0) (h1 : ¬n % 4 = 3) (acc : Vec Ideal S1024x1024 .f32) :
    Value.scAt0_0 m c n hn acc = k0_pay2 acc (iblk m c 0 ⟨n, hn⟩) (iblk m c 1 ⟨n, hn⟩) := by
  unfold Value.scAt0_0
  rw [dif_neg h0, dif_neg h1]
  exact Pieces.middle_step c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) _ _ (iblk m c 0 ⟨n, hn⟩) (iblk m c 1 ⟨n, hn⟩) (iblk m c 2 ⟨n, hn⟩) acc

/-- After the first three points of a run starting at `b`, entry (p, q) of the scratch is the first three
    partial contractions added in order to zero. -/
theorem scratch_after_three (c : Dev nD) (b : ℕ) (hb : b % 4 = 0) (h : b + 2 < cfg0.N) (p q : Fin 1024)
    (r : Fin 8192) (o : Fin 4096) (hr : r.val = 1024 * (b / 16) + p.val) (ho : o.val = 1024 * (b / 4 % 4) + q.val) :
    Pipeline.accAt (fun n h => Value.scAt0_0 m c n h (VS0_0.read (Elt Ideal) VS0_0.junk)) (Value.scAt0_0 m c) b 2 h (ix2 p q)
      = ((0 + partial_ (V m c main_v16) (V m c main_v17) r o 0) + partial_ (V m c main_v16) (V m c main_v17) r o 1)
          + partial_ (V m c main_v16) (V m c main_v17) r o 2 := by
  rw [Pipeline.accAt_succ, Pipeline.accAt_succ, Pipeline.accAt_zero]
  rw [scratch_middle m c (b + (1 + 1)) _ (by omega) (by omega), scratch_middle m c (b + (0 + 1)) _ (by omega) (by omega),
    scratch_first m c b _ hb]
  rw [step_apply m c (b + (1 + 1)) _ _ p q r o 2 (by omega) (by omega) (by show 2 = _; omega),
    step_apply m c (b + (0 + 1)) _ _ p q r o 1 (by omega) (by omega) (by show 1 = _; omega),
    step_apply m c b _ _ p q r o 0 hr ho (by show 0 = _; omega), Payload.zeroed_apply]

/-- The fold does not depend on how its length is written. -/
theorem accAt_len {α : Type} {N : ℕ} (a : (n : ℕ) → n < N → α) (g : (n : ℕ) → n < N → α → α) (b j j' : ℕ)
    (h : b + j < N) (h' : b + j' < N) (e : j = j') : Pipeline.accAt a g b j h = Pipeline.accAt a g b j' h' := by
  subst e; rfl

/-- THE OUTPUT BLOCK of a point that ends a run, at entry (p, q): the layer's entry at the row and column the
    entry stands for — the four partial contractions added in order to zero, then the bias. -/
theorem out_block_apply (c : Dev nD) (t : Fin cfg0.N) (h0 : ¬t.val % 4 = 0) (h3 : t.val % 4 = 3) (p q : Fin 1024)
    (r : Fin 8192) (o : Fin 4096) (hr : r.val = 1024 * (t.val / 16) + p.val) (ho : o.val = 1024 * (t.val / 4 % 4) + q.val) :
    out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3)
        (iblk m c 0 t) (iblk m c 1 t) (iblk m c 2 t) (outsAt0 m c (t.val - 1) (Nat.lt_of_le_of_lt (Nat.sub_le _ _) t.isLt)).2 (ix2 p q)
      = linear (V m c main_v16) (V m c main_v17) (fun j => V m c main_v18 (ix2 (0 : Fin 1) (⟨(j 0).val, (j 0).isLt⟩ : Fin 4096))) (ix2 r o) := by
  have hN : cfg0.N = 128 := N_0
  have hlt : t.val < 128 := lt_of_lt_of_eq t.isLt hN
  rw [Pieces.last_step_out c (grid0.coords t) (ms0_0 t) (hs0_0 t) (ms0_1 t) (hs0_1 t) (ms0_2 t) (hs0_2 t) (ms0_3 t) (hs0_3 t) _ _ (iblk m c 0 t) (iblk m c 1 t) (iblk m c 2 t) _]
  refine (Payload.epilogue_apply _ (iblk m c 2 t) p q).trans ?_
  rw [step_apply m c t.val t.isLt _ p q r o 3 hr ho (by show 3 = _; omega)]
  rw [Blocks.b_block m c t q o ho]
  rw [← linear_by_slices]
  refine congrArg (· + _) (congrArg (· + _) ?_)
  refine (congrFun (Value.soutsAt0_0_eq m c ⟨t.val - 1, Nat.lt_of_le_of_lt (Nat.sub_le _ _) t.isLt⟩) (ix2 p q)).trans ?_
  rw [accAt_len _ _ _ _ 2 _ (lt_of_lt_of_eq (by omega : 4 * ((t.val - 1) / 4) + 2 < 128) hN.symm) (by show (t.val - 1) % 4 = 2; omega)]
  exact scratch_after_three m c (4 * ((t.val - 1) / 4)) (by omega) _ p q r o (by omega) (by omega)

end Cert.KernelIdeal.Accum
end
-- ==== Proof.Result.lean ====
/-
  The kernel's result array after the run is the linear layer of the program's arguments.

  The last point of each run of four writes back its 1024 x 1024 block, which is that block of the layer of the
  three operands as the region finds them; the 32 blocks tile the 8192 x 4096 result, so the whole array is the
  layer. The operands are the program's input (in a narrower float format: the same numbers), the weight
  matrix built from the codebooks and labels (likewise), and the bias viewed as a row.
-/
import proofs.«133738_j6751688589356_1_alg».proof.Proof.Gen.KernelIdeal.Value
import proofs.«133738_j6751688589356_1_alg».proof.Proof.Accum
import proofs.«133738_j6751688589356_1_alg».proof.Proof.Entry
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Result
open Cert.KernelIdeal Cert.KernelIdeal.Gen Cert.Linear

variable (m : (ℓ : Loc nD τ sig) → Buf (Elt Ideal) ℓ) (ρ : Dev nD → PrngReg)

/-- The layer of the three operands as the region finds them. -/
def atEntry (c : Dev nD) : SX.Idx → EReal :=
  linear (V m c main_v16) (V m c main_v17) (fun j => V m c main_v18 (ix2 (0 : Fin 1) (⟨(j 0).val, (j 0).isLt⟩ : Fin 4096)))

/-- What a point that ends a run writes back is its block of the layer. -/
theorem flushed_eq (c : Dev nD) (t : Fin cfg0.N) (hf : (cfg0.win 3).flush t = true) :
    (dats m 0 c).flushed 3 t = ((cfg0.win 3).blk t).view.read (Elt Ideal) (atEntry m c) := by
  have h3 : t.val % 4 = 3 := (flush0_3 t).mp hf
  have h0 : ¬t.val % 4 = 0 := by omega
  have hlt : t.val < 128 := lt_of_lt_of_eq t.isLt (show cfg0.N = 128 from N_0)
  obtain ⟨-, -, -, -, -, -, e0, e1⟩ := Blocks.block_indices t
  rw [Value.flushed3_C m c t h0 h3]
  funext y
  obtain ⟨p, q, rfl⟩ : ∃ (p q : Fin 1024), y = ix2 p q := ⟨y 0, y 1, eq_ix2 y⟩
  have hemb : ((cfg0.win 3).blk t).view.emb (ix2 p q)
      = ix2 (⟨1024 * (t.val / 16) + p.val, by omega⟩ : Fin 8192) (⟨1024 * (t.val / 4 % 4) + q.val, by omega⟩ : Fin 4096) := by
    funext a; apply Fin.ext
    match a with
    | ⟨0, _⟩ => show win0_3.index t (0 : Fin 2) * 1024 + 1 * p.val = 1024 * (t.val / 16) + p.val; omega
    | ⟨1, _⟩ => show win0_3.index t (1 : Fin 2) * 1024 + 1 * q.val = 1024 * (t.val / 4 % 4) + q.val; omega
  show _ = atEntry m c (((cfg0.win 3).blk t).view.emb (ix2 p q))
  rw [hemb]
  exact Accum.out_block_apply m c t h0 h3 p q _ _ rfl rfl

/-- The blocks written back tile the result, so after the run the result array is the layer. -/
theorem final (c : Dev nD) : (dats m 0 c).arrAt 3 cfg0.N = atEntry m c :=
  (dats m 0 c).arrAt_eq_of_cover 3 (atEntry m c) (flushed_eq m c) Blocks.covered

/-- In terms of the program's arguments: the input, the weight matrix built from the codebooks and labels,
    and the bias (the changes of float format are the identity, and the bias viewed as a row is read at its column). -/
theorem atEntry_eq (c : Dev nD) :
    atEntry m c = linear (m ((c : Thread nD τ).loc main_arg0))
      (Entry.weights (F := Ideal) (m ((c : Thread nD τ).loc main_arg1)) (m ((c : Thread nD τ).loc main_arg2)) (m ((c : Thread nD τ).loc main_arg3)) (m ((c : Thread nD τ).loc main_arg4)))
      (m ((c : Thread nD τ).loc main_arg5)) := by
  unfold atEntry
  rw [Entry.entry_x m c, Entry.entry_w m c, Entry.entry_b m c]
  refine congrArg (linear _ _) ?_
  funext j
  obtain ⟨o, rfl⟩ : ∃ o : Fin 4096, j = ix1 o := ⟨j 0, eq_ix1 j⟩
  exact shapeCast_a_1a_apply _ _ (0 : Fin 1) o

/-- The kernel's run, with the result array named. -/
theorem run : θ_run defs (onTc (τ := τ) (main (F := Ideal))) ⟨m, fun _ => 0, ρ⟩ fun r => ∀ c : Dev nD,
      r.2.mem ((c : Thread nD τ).loc main_v19) = atEntry m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Result
end
-- ==== Proof.RefLinear.lean ====
/-
  The reference's run, read entry by entry, is the linear layer of its arguments.

  The reference transposes the weight matrix and contracts the input's second axis with the transposed
  matrix's first; reading the transpose at an index swaps the two coordinates back, so entry (r, n) is the
  contraction of row r of the input with row n of the matrix. The bias is laid out as a row and broadcast
  down the rows, so entry (r, n) receives the bias at n.
-/
import proofs.«133738_j6751688589356_1_alg».proof.Proof.Gen.ReferenceIdeal.Read
import proofs.«133738_j6751688589356_1_alg».proof.Proof.Spec

noncomputable section

open Idealize.ShloMosaic Idealize.ShloMosaic.ValueIdx
open scoped BigOperators

namespace Cert.ReferenceIdeal.RefLinear
open Cert.ReferenceIdeal Cert.ReferenceIdeal.Read Cert.Linear

/-- The reference's result is the layer of its input, the weight matrix its program builds, and its bias:
    the transposed matrix contracted along its first axis is the matrix contracted along its second, and the
    bias broadcast along the rows is read at the column. -/
theorem result_eq (x0 : (⟨S8192x4096, .f32⟩ : BufTy).Contents (Elt Ideal)) (x1 : (⟨S64x16, .f32⟩ : BufTy).Contents (Elt Ideal))
    (x2 : (⟨S1048576, .i32⟩ : BufTy).Contents (Elt Ideal)) (x3 : (⟨S64x16, .f32⟩ : BufTy).Contents (Elt Ideal))
    (x4 : (⟨S1048576, .i32⟩ : BufTy).Contents (Elt Ideal)) (x5 : (⟨S4096, .f32⟩ : BufTy).Contents (Elt Ideal)) :
    val_main_v20 (F := Ideal) x0 x1 x2 x3 x4 x5 = linear x0 (val_main_v15 (F := Ideal) x1 x2 x3 x4) x5 := by
  funext i
  obtain ⟨r, o, rfl⟩ : ∃ (r : Fin 8192) (o : Fin 4096), i = ix2 r o := ⟨i 0, i 1, eq_ix2 i⟩
  have el : ∀ k : Fin 4096, lidx_main_v17 (ix2 r o) k = ix2 r k := fun k =>
    funext fun a => by match a with | ⟨0, _⟩ => rfl | ⟨1, _⟩ => rfl
  have er : ∀ k : Fin 4096, idx_main_v16 (ridx_main_v17 (ix2 r o) k) = ix2 o k := fun k =>
    funext fun a => by match a with | ⟨0, _⟩ => rfl | ⟨1, _⟩ => rfl
  have eb : idx_main_v18 (idx_main_v19 (ix2 r o)) = ix1 o :=
    funext fun a => by match a with | ⟨0, _⟩ => rfl
  rw [val_main_v20_apply, val_main_v17_apply, val_main_v19_apply, val_main_v18_apply, linear_apply, eb]
  simp only [val_main_v16_apply, el, er]
  rfl

end Cert.ReferenceIdeal.RefLinear
end
-- ==== Proof.lean ====
/-
  A linear layer whose weight matrix is rebuilt from a two-level vector-quantised codebook:
  `y = x · Wᵀ + b` with `W` (4096 x 4096) assembled from two 64 x 16 codebooks gathered at their labels and
  added, `x` of 8192 rows, `b` a bias of 4096 entries.

  The kernel tiles the product: the grid runs over (row block, column block, feature slice), each of extent
  1024; a 1024 x 1024 accumulator is zeroed at a run's first slice, receives the partial contraction
  `x_block · W_blockᵀ` of each of the four slices in order, and at the last slice the bias row is added and
  the block is stored. The reference transposes `W`, contracts all 4096 features at once and adds the
  broadcast bias. Both programs build `W` by the same operations.

  Over the extended reals the two agree entry by entry: entry (r, n) is, on the kernel's side,
  `((((0 + P₀) + P₁) + P₂) + P₃) + b n` with `Pₛ` the contraction of row r of `x` with row n of `W` over the
  features `1024 s … 1024 s + 1023`, and on the reference's side `(∑ over all 4096 features) + b n`; the two are
  related by associativity and commutativity of addition alone, so no entry needs to be finite and the
  precondition is never opened. The operands' narrower float format is the identity on extended reals, and the
  ideal pass rewrote nothing, so the idealized kernel is the kernel's own text.

  The modules: Spec (the layer and the re-association law), Pieces and Payload (what a point stores, as a
  term and at an entry), Blocks (where blocks sit; the cover), Entry (the operands at region entry; the weight
  matrix is one term in both programs), Accum (the accumulator over a run), Result (the kernel's result
  array), RefLinear (the reference's result).
-/
import proofs.«133738_j6751688589356_1_alg».proof.Defs
import proofs.«133738_j6751688589356_1_alg».proof.Proof.Gen.Kernel
import proofs.«133738_j6751688589356_1_alg».proof.Proof.Gen.Kernel.Skeleton
import proofs.«133738_j6751688589356_1_alg».proof.Proof.Gen.Kernel.Launch
import proofs.«133738_j6751688589356_1_alg».proof.Proof.Gen.Kernel.Points
import proofs.«133738_j6751688589356_1_alg».proof.Proof.Gen.Kernel.Frame
import proofs.«133738_j6751688589356_1_alg».proof.Proof.Gen.KernelIdeal
import proofs.«133738_j6751688589356_1_alg».proof.Proof.Gen.KernelIdeal.Skeleton
import proofs.«133738_j6751688589356_1_alg».proof.Proof.Gen.KernelIdeal.Launch
import proofs.«133738_j6751688589356_1_alg».proof.Proof.Gen.KernelIdeal.Points
import proofs.«133738_j6751688589356_1_alg».proof.Proof.Gen.KernelIdeal.Frame
import proofs.«133738_j6751688589356_1_alg».proof.Proof.Gen.ReferenceIdeal
import proofs.«133738_j6751688589356_1_alg».proof.Proof.Gen.Pre_finite_inputs
import proofs.«133738_j6751688589356_1_alg».proof.Proof.Gen.KernelIdeal.Value
import proofs.«133738_j6751688589356_1_alg».proof.Proof.Gen.ReferenceIdeal.Run
import proofs.«133738_j6751688589356_1_alg».proof.Proof.Gen.ReferenceIdeal.Read
import proofs.«133738_j6751688589356_1_alg».proof.Proof.Entry
import proofs.«133738_j6751688589356_1_alg».proof.Proof.Result
import proofs.«133738_j6751688589356_1_alg».proof.Proof.RefLinear
import Idealize.ShloMosaic.Adequacy
import Idealize.ShloMosaic.Init

noncomputable section

namespace Cert.Proof

open Idealize.ShloMosaic Idealize.SL.Sem

/-- The kernel runs and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the linear layer of arguments that agree: the kernel by accumulating the four
    slices of the contraction block by block, the reference by one contraction against the transposed matrix. -/
theorem algebraic : Cert.algebraic_KernelIdeal_ReferenceIdeal := by
  intro m ρ m' ρ' _ hagree
  refine ⟨fun c => Cert.KernelIdeal.Result.atEntry m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Result.atEntry m c
  rw [Cert.ReferenceIdeal.Read.val_main_v20_eq, Cert.ReferenceIdeal.RefLinear.result_eq,
    Cert.KernelIdeal.Result.atEntry_eq, Cert.KernelIdeal.Entry.weights_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
